-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S256x256 : Shape := ⟨2, ![256, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16x256x128x128 .f32) (main_arg1 : FVec F S256x256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S16x256x128x128 : Shape := ⟨4, ![16, 256, 128, 128]⟩
abbrev S256x256 : Shape := ⟨2, ![256, 256]⟩
abbrev S16x256x16384 : Shape := ⟨3, ![16, 256, 16384]⟩
abbrev S1x256x2048 : Shape := ⟨3, ![1, 256, 2048]⟩
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S16x256x16384, .f32⟩
  | .hbm, ⟨3, _⟩ => ⟨S16x256x16384, .f32⟩
  | .hbm, ⟨4, _⟩ => ⟨S16x256x128x128, .f32⟩
  | .local _ .vmem, ⟨0, _⟩ => ⟨S1x256x2048, .f32⟩
  | .local _ .vmem, ⟨1, _⟩ => ⟨S1x256x2048, .f32⟩
  | .local _ .vmem, ⟨2, _⟩ => ⟨S256x256, .f32⟩
  | .local _ .vmem, ⟨3, _⟩ => ⟨S1x256x2048, .f32⟩
  | .local _ .vmem, ⟨4, _⟩ => ⟨S1x256x2048, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x256x128x128_S16x256x16384 : S16x256x128x128.ShapeCasts S16x256x16384
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x256_S256x256_0_0 : ∀ a, (![0, 0] : Fin 2 → Nat) a + S256x256.size a ≤ S256x256.size a
  h_S256x256 : 0 < S256x256.numel
  reduces_S256x2048_S2048 : S256x2048.Reduces [0] S2048
  shapeCasts_S2048_S1x2048 : S2048.ShapeCasts S1x2048
  reduces_S256x256_S256 : S256x256.Reduces [1] S256
  shapeCasts_S256_S256x1 : S256.ShapeCasts S256x1
  bitsLt_bf16_f32 : FTy.bits .bf16 < FTy.bits .f32
  broadcasts_S256x1_S256x2048 : S256x1.Broadcasts S256x2048
  broadcasts_S1x2048_S256x2048 : S1x2048.Broadcasts S256x2048
  shapeCasts_S256x2048_S1x256x2048 : S256x2048.ShapeCasts S1x256x2048
  shapeCasts_S16x256x16384_S16x256x128x128 : S16x256x16384.ShapeCasts S16x256x128x128
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x256x16384.size a
  hwx0_0 : ∀ i : grid0.Coords, EltTy.bits .f32 = 32 ∨ (Rect.block (s := S16x256x16384) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x256x16384.size a
  hwx0_2 : ∀ i : grid0.Coords, EltTy.bits .f32 = 32 ∨ (Rect.block (s := S16x256x16384) S1x256x2048.size (cc0_transform_2 i) (hinb0_2 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S256x256 : Shape := ⟨2, ![256, 256]⟩
abbrev S16x256x16384 : Shape := ⟨3, ![16, 256, 16384]⟩
abbrev S16x16384x256 : Shape := ⟨3, ![16, 16384, 256]⟩
abbrev S262144x256 : Shape := ⟨2, ![262144, 256]⟩
abbrev S_ : Shape := ⟨0, ![]⟩
abbrev S262144 : Shape := ⟨1, ![262144]⟩
abbrev S262144x1 : Shape := ⟨2, ![262144, 1]⟩
abbrev S256 : Shape := ⟨1, ![256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S16x256x16384, .f32⟩
  | .hbm, ⟨3, _⟩ => ⟨S16x16384x256, .f32⟩
  | .hbm, ⟨4, _⟩ => ⟨S262144x256, .f32⟩
  | .hbm, ⟨5, _⟩ => ⟨S262144x256, .f32⟩
  | .hbm, ⟨6, _⟩ => ⟨S_, .f32⟩
  | .hbm, ⟨7, _⟩ => ⟨S262144, .f32⟩
  | .hbm, ⟨8, _⟩ => ⟨S262144x1, .f32⟩
  | .hbm, ⟨9, _⟩ => ⟨S256x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S256x256, .f32⟩
  | .hbm, ⟨17, _⟩ => ⟨S262144x256, .f32⟩
  | .hbm, ⟨18, _⟩ => ⟨S_, .f32⟩
  | .hbm, ⟨19, _⟩ => ⟨S262144x256, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S262144x256, .f32⟩
  | .hbm, ⟨24, _⟩ => ⟨S262144x256, .f32⟩
  | .hbm, ⟨25, _⟩ => ⟨S16x16384x256, .f32⟩
  | .hbm, ⟨26, _⟩ => ⟨S16x256x16384, .f32⟩
  | .hbm, ⟨27, _⟩ => ⟨S16x256x128x128, .f32⟩
  | .hbm, ⟨28, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  shapeCasts_S16x256x128x128_S16x256x16384 : S16x256x128x128.ShapeCasts S16x256x16384
  transposes_S16x256x16384_S16x16384x256_0_2_1 : S16x256x16384.Transposes [0, 2, 1] S16x16384x256
  shapeCasts_S16x16384x256_S262144x256 : S16x16384x256.ShapeCasts S262144x256
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S256x256_S256_d1 : S256x256.ReducesTo [1] S256
  bcast_S256_S1x256_1 : S256.BroadcastsInDim S1x256 (![1] : Fin 1 → Fin S1x256.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  transposes_S256x256_S256x256_1_0 : S256x256.Transposes [1, 0] S256x256
  bcast_S_S262144x256 : S_.BroadcastsInDim S262144x256 (![] : Fin 0 → Fin S262144x256.rank)
  shapeCasts_S262144x256_S16x16384x256 : S262144x256.ShapeCasts S16x16384x256
  transposes_S16x16384x256_S16x256x16384_0_2_1 : S16x16384x256.Transposes [0, 2, 1] S16x256x16384
  shapeCasts_S16x256x16384_S16x256x128x128 : S16x256x16384.ShapeCasts S16x256x128x128
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Spec.lean ====
/-
  The function both programs compute, on the extended reals.

  For an embedding array `E[b, c, n]` (16 images, 256 channels, 16384 pixels) and prototypes `P[k, c]` (256 prototypes,
  256 channels), the entry at image `b`, prototype `k`, pixel `n` is the negated, clamped squared distance written through
  the expansion of the square,
      0 − max( ‖P_k‖² + ‖E_{b,·,n}‖² − 2·⟨P_k, E_{b,·,n}⟩ , 0 ),
  every sum over the 256 channels. The constants `2` and `0` are kept as the f32 words both programs print; only the
  zero word is ever evaluated.

  The two programs differ in the order of the two squared norms, in the order of the factors inside the inner product,
  and in how the sign is taken (`0 − x` against `−x`). Addition and multiplication of extended reals commute and
  `0 − x = −x` at the infinities too, so the two forms agree on EVERY input: no finiteness is used.
-/
import Idealize.ShloMosaic.PureOps.Ideal.Laws
import Idealize.ShloMosaic.Lib.ValueIdx

noncomputable section

namespace Cert.SqDist

open Idealize.ShloMosaic Idealize.ShloMosaic.ValueIdx

/-- The word of `2.0`, as the extended real it denotes. -/
abbrev two : EReal := Ideal.ofBits .f32 0x40000000#32
/-- The word of `0.0`, as the extended real it denotes (which is `0`: `Ideal.ofBits_zero_f32`). -/
abbrev zero : EReal := Ideal.ofBits .f32 0x00000000#32

/-- The clamp and the sign, from the two squared norms `sP`, `sE` and the inner product `d`. -/
def clampNeg (sP sE d : EReal) : EReal := zero - max ((sP + sE) - two * d) zero

/-- Squared norm of prototype `k`. -/
def protoSq (P : (⟨2, ![256, 256]⟩ : Shape).Idx → EReal) (k : Fin 256) : EReal :=
  ∑ c : Fin 256, P (ix2 k c) * P (ix2 k c)

/-- Squared norm of the embedding of image `b` at pixel `n`. -/
def embSq (E : (⟨3, ![16, 256, 16384]⟩ : Shape).Idx → EReal) (b : Fin 16) (n : Fin 16384) : EReal :=
  ∑ c : Fin 256, E (ix3 b c n) * E (ix3 b c n)

/-- Inner product of prototype `k` with the embedding of image `b` at pixel `n`. -/
def protoDotEmb (P : (⟨2, ![256, 256]⟩ : Shape).Idx → EReal) (E : (⟨3, ![16, 256, 16384]⟩ : Shape).Idx → EReal)
    (b : Fin 16) (k : Fin 256) (n : Fin 16384) : EReal :=
  ∑ c : Fin 256, P (ix2 k c) * E (ix3 b c n)

/-- The result at image `b`, prototype `k`, pixel `n`. -/
def negDistAt (E : (⟨3, ![16, 256, 16384]⟩ : Shape).Idx → EReal) (P : (⟨2, ![256, 256]⟩ : Shape).Idx → EReal)
    (b : Fin 16) (k : Fin 256) (n : Fin 16384) : EReal :=
  clampNeg (protoSq P k) (embSq E b n) (protoDotEmb P E b k n)

/-- The whole result array `[16, 256, 16384]`: images, prototypes, pixels. -/
def negDist (E : (⟨3, ![16, 256, 16384]⟩ : Shape).Idx → EReal) (P : (⟨2, ![256, 256]⟩ : Shape).Idx → EReal) :
    (⟨3, ![16, 256, 16384]⟩ : Shape).Idx → EReal :=
  fun j => negDistAt E P (j 0) (j 1) (j 2)

/-- The other arrangement: each squared norm added to a zero, the embedding's norm first, the inner product's value `d'`
    equal to `d`, and the sign taken by negation. Commutativity of `+` and `0 − x = −x`; nothing about finiteness. -/
theorem neg_max_eq_clampNeg (sP sE d d' : EReal) (hd : d' = d) :
    -(max (((zero + sE) + (zero + sP)) - two * d') zero) = clampNeg sP sE d := by
  subst hd
  unfold clampNeg
  rw [show zero = (0 : EReal) from Ideal.ofBits_zero_f32, zero_add, zero_add, zero_sub, add_comm sE sP]

/-- The inner product with the factors in the other order. -/
theorem embDotProto_eq (P : (⟨2, ![256, 256]⟩ : Shape).Idx → EReal) (E : (⟨3, ![16, 256, 16384]⟩ : Shape).Idx → EReal)
    (b : Fin 16) (k : Fin 256) (n : Fin 16384) :
    (∑ c : Fin 256, E (ix3 b c n) * P (ix2 k c)) = protoDotEmb P E b k n :=
  Finset.sum_congr rfl fun c _ => mul_comm _ _

end Cert.SqDist

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  What the kernel body stores, read at one element of its block.

  The body loads a block `x0[1, c, l]` of the embeddings (one image, all 256 channels, 2048 pixels) and the whole
  prototype matrix `x1[k, c]`, and stores a block `[1, k, l]`. Read at `(u, k, l)` its stored value is the clamp-and-negate
  of three channel sums: the squared norm of prototype `k` (a sum along the rows of `x1 ∘ x1`, kept as a column and
  broadcast over the pixels), the squared norm of the embedding at pixel `l` (a sum down the columns of the squared block,
  kept as a row and broadcast over the prototypes), and the matrix product `x1 · x0` at `(k, l)`, accumulated from zero, whose
  two roundings to a narrower format are the identity on extended reals.
-/
import proofs.«163457_j42339787604062_2_alg».proof.Proof.Gen.KernelIdeal.Skeleton
import proofs.«163457_j42339787604062_2_alg».proof.Proof.Spec
import proofs.«163457_j42339787604062_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The two channel sums -/

/-- A sum down the columns of a `[256, 2048]` array, at column `l`: the sum over the 256 rows. -/
theorem sumDown_apply (v : FVec Ideal S256x2048 .f32) (h : S256x2048.Reduces [0] S2048) (hφ : FKind.Formats .f32)
    (hacc : (0x00000000#32 : BitVec 32) = FKind.add.neutral .f32 hφ) (l : Fin 2048) :
    multiReduction .add [0] S2048 v 0x00000000#32 h hφ hacc (ix1 l) = ∑ c : Fin 256, v (ix2 c l) :=
  (Ideal.multiReduction_add_single v _ h hφ hacc (ix1 l)).trans
    (Finset.sum_congr rfl fun c _ => congrArg v (funext fun a => Fin.ext (by
      match a with
      | ⟨0, _⟩ => rfl
      | ⟨1, _⟩ => rfl)))

/-- A sum along the rows of a `[256, 256]` array, at row `k`: the sum over the 256 columns. -/
theorem sumAlong_apply (v : FVec Ideal S256x256 .f32) (h : S256x256.Reduces [1] S256) (hφ : FKind.Formats .f32)
    (hacc : (0x00000000#32 : BitVec 32) = FKind.add.neutral .f32 hφ) (k : Fin 256) :
    multiReduction .add [1] S256 v 0x00000000#32 h hφ hacc (ix1 k) = ∑ c : Fin 256, v (ix2 k c) :=
  (Ideal.multiReduction_add_single v _ h hφ hacc (ix1 k)).trans
    (Finset.sum_congr rfl fun c _ => congrArg v (funext fun a => Fin.ext (by
      match a with
      | ⟨0, _⟩ => rfl
      | ⟨1, _⟩ => rfl)))

/-! ## The matrix product -/

theorem lhs_row (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_col (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem rhs_row (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem rhs_col (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The product of a `[256, 256]` matrix with a `[256, 2048]` one, accumulated from the zero splat, at `(k, l)`: the sum over
    the shared axis of the row's entry times the column's. -/
theorem product_apply {φ₁ φ₂ : FTy} (A : FVec Ideal S256x256 φ₁) (B : FVec Ideal S256x2048 φ₂) (k : Fin 256) (l : Fin 2048) :
    matmul dot_S256x256_S256x2048_S256x2048_1_0_0_1_n_n none A B (constant (F := Ideal) S256x2048 .f32 0x00000000#32) (ix2 k l)
      = ∑ c : Fin 256, A (ix2 k c) * B (ix2 c l) := by
  simp only [matmul]
  rw [Ideal.matmul_constant_zero_apply, ← Equiv.sum_comp (ValueIdx.contrEquiv1 dot_S256x256_S256x2048_S256x2048_1_0_0_1_n_n 256 rfl rfl).symm]
  refine Finset.sum_congr rfl fun c _ => ?_
  have hc := ValueIdx.contrEquiv1_symm_val dot_S256x256_S256x2048_S256x2048_1_0_0_1_n_n 256 rfl rfl c
  have el : dot_S256x256_S256x2048_S256x2048_1_0_0_1_n_n.lhsIdx (ix2 k l) ((ValueIdx.contrEquiv1 dot_S256x256_S256x2048_S256x2048_1_0_0_1_n_n 256 rfl rfl).symm c) = ix2 k c := funext fun a => Fin.ext (by
    match a with
    | ⟨0, _⟩ => exact lhs_row _ _
    | ⟨1, _⟩ => exact (lhs_col _ _).trans hc)
  have er : dot_S256x256_S256x2048_S256x2048_1_0_0_1_n_n.rhsIdx (ix2 k l) ((ValueIdx.contrEquiv1 dot_S256x256_S256x2048_S256x2048_1_0_0_1_n_n 256 rfl rfl).symm c) = ix2 c l := funext fun a => Fin.ext (by
    match a with
    | ⟨0, _⟩ => exact (rhs_row _ _).trans hc
    | ⟨1, _⟩ => exact rhs_col _ _)
  rw [el, er]

/-! ## The three pieces of the stored value, each read at `(k, l)` -/

/-- The prototypes' squared norms, summed along the rows, kept as a column, broadcast over the pixels. -/
theorem protoNorm_apply (x1 : FVec Ideal S256x256 .f32) (h : S256x256.Reduces [1] S256) (hφ : FKind.Formats .f32)
    (hacc : (0x00000000#32 : BitVec 32) = FKind.add.neutral .f32 hφ) (hc : S256.ShapeCasts S256x1) (hb : S256x1.Broadcasts S256x2048)
    (k : Fin 256) (l : Fin 2048) :
    broadcastTo S256x2048 (shapeCast S256x1 (multiReduction .add [1] S256 (mulf x1 x1) 0x00000000#32 h hφ hacc) hc) hb (ix2 k l)
      = ∑ c : Fin 256, x1 (ix2 k c) * x1 (ix2 k c) :=
  (Cert.Keepdims.broadcastTo_a1_ab_apply _ hb k l).trans
    ((Cert.Keepdims.shapeCast_a_a1_apply _ hc k 0).trans (sumAlong_apply (mulf x1 x1) h hφ hacc k))

/-- The block's squared norms, summed down the columns, kept as a row, broadcast over the prototypes. -/
theorem embNorm_apply (v1 : FVec Ideal S256x2048 .f32) (h : S256x2048.Reduces [0] S2048) (hφ : FKind.Formats .f32)
    (hacc : (0x00000000#32 : BitVec 32) = FKind.add.neutral .f32 hφ) (hc : S2048.ShapeCasts S1x2048) (hb : S1x2048.Broadcasts S256x2048)
    (k : Fin 256) (l : Fin 2048) :
    broadcastTo S256x2048 (shapeCast S1x2048 (multiReduction .add [0] S2048 (mulf v1 v1) 0x00000000#32 h hφ hacc) hc) hb (ix2 k l)
      = ∑ c : Fin 256, v1 (ix2 c l) * v1 (ix2 c l) :=
  (broadcastTo_1b_ab_apply _ hb k l).trans
    ((shapeCast_a_1a_apply _ hc 0 l).trans (sumDown_apply (mulf v1 v1) h hφ hacc l))

/-! ## The stored value -/

/-- THE BODY'S STORED VALUE at `(u, k, l)`: the clamp-and-negate of prototype `k`'s squared norm, the squared norm of the
    block's column `l`, and their inner product. -/
theorem pay_apply (x0 : Vec Ideal S1x256x2048 .f32) (x1 : Vec Ideal S256x256 .f32) (u : Fin 1) (k : Fin 256) (l : Fin 2048) :
    k0_pay1 (F := Ideal) x0 x1 (ix3 u k l)
      = Cert.SqDist.clampNeg (∑ c : Fin 256, x1 (ix2 k c) * x1 (ix2 k c))
          (∑ c : Fin 256, x0 (ix3 (0 : Fin 1) c l) * x0 (ix3 (0 : Fin 1) c l))
          (∑ c : Fin 256, x1 (ix2 k c) * x0 (ix3 (0 : Fin 1) c l)) := by
  unfold k0_pay1
  refine (shapeCast_ab_1ab_apply _ _ u k l).trans ?_
  unfold Cert.SqDist.clampNeg
  simp only [subf_apply, maximumf_apply, addf_apply, mulf_apply, broadcast_apply]
  refine congrArg₂ (fun a d => Cert.SqDist.zero - max (a - Cert.SqDist.two * d) Cert.SqDist.zero) (congrArg₂ (· + ·) ?_ ?_) ?_
  · exact protoNorm_apply x1 _ _ _ _ _ k l
  · exact (embNorm_apply (shapeCast S256x2048 x0 shapeCasts_S1x256x2048_S256x2048) _ _ _ _ _ k l).trans
      (Finset.sum_congr rfl fun c _ => congrArg₂ (· * ·) (shapeCast_1ab_ab_apply x0 _ c l) (shapeCast_1ab_ab_apply x0 _ c l))
  · exact (product_apply (truncf .bf16 x1 bitsLt_bf16_f32) (truncf .bf16 (shapeCast S256x2048 x0 shapeCasts_S1x256x2048_S256x2048) bitsLt_bf16_f32) k l).trans
      (Finset.sum_congr rfl fun c _ => congrArg (x1 (ix2 k c) * ·) (shapeCast_1ab_ab_apply x0 _ c l))

end Cert.KernelIdeal.Payload

end
-- ==== Proof.Blocks.lean ====
/-
  From the blocks to the array.

  The grid has 16 × 8 points; point `(b, q)` stages block `(b, 0, q)` of the reshaped embeddings `[16, 256, 16384]` (image
  `b`, every channel, pixels `2048 q … 2048 q + 2047`), the whole prototype matrix, and writes back block `(b, 0, q)` of the
  result array, of the same shape. What it writes is, entry by entry, the specification of the two arrays as the region
  finds them, read through the block's rectangle: the input block sits under the output block (the two index maps agree),
  so the channel sums of the block's column `l` are those of pixel `2048 q + l`. The 128 blocks tile the result array — pixel
  `n` of image `b` lies in block `(b, 0, n / 2048)` — so after the run the array is the specification.
-/
import proofs.«163457_j42339787604062_2_alg».proof.Proof.Gen.KernelIdeal.Frame
import proofs.«163457_j42339787604062_2_alg».proof.Proof.Payload
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Idealize.ShloMosaic.ValueIdx Cert.KernelIdeal Cert.KernelIdeal.Gen

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: the embeddings' block moves with the result's, both stay at block 0 of the channel /
    prototype axis, the prototypes' block never moves, and the result's block indices stay in their ranges. -/
theorem index_facts : ∀ t : Fin cfg0.N,
    win0_0.index t (0 : Fin 3) = win0_2.index t (0 : Fin 3)
    ∧ win0_0.index t (1 : Fin 3) = 0
    ∧ win0_0.index t (2 : Fin 3) = win0_2.index t (2 : Fin 3)
    ∧ win0_1.index t (0 : Fin 2) = 0
    ∧ win0_1.index t (1 : Fin 2) = 0
    ∧ win0_2.index t (1 : Fin 3) = 0
    ∧ win0_2.index t (0 : Fin 3) < 16
    ∧ win0_2.index t (2 : Fin 3) < 8 :=
  (by decide +kernel : ∀ t : Fin grid0.N, _)

/-- Every block `(b, 0, q)` of the result array is some point's. -/
theorem index_onto : ∀ (b : Fin 16) (q : Fin 8), ∃ t : Fin cfg0.N, win0_2.index t = ![b.val, 0, q.val] :=
  (by decide +kernel : ∀ (b : Fin 16) (q : Fin 8), ∃ t : Fin grid0.N, win0_2.index t = ![b.val, 0, q.val])

/-! ## The input blocks, read -/

/-- The embeddings' block at point `t`, at `x`, is the reshaped embeddings at the array index under `x`. -/
theorem embBlock_apply (c : Dev nD) (t : Fin cfg0.N) (x : S1x256x2048.Idx) (i : S16x256x16384.Idx)
    (h0 : win0_0.index t (0 : Fin 3) * 1 + 1 * (x 0).val = (i 0).val)
    (h1 : win0_0.index t (1 : Fin 3) * 256 + 1 * (x 1).val = (i 1).val)
    (h2 : win0_0.index t (2 : Fin 3) * 2048 + 1 * (x 2).val = (i 2).val) :
    (iblk m c 0 t : Vec Ideal S1x256x2048 .f32) x = (V m c main_v0 : S16x256x16384.Idx → Elt Ideal .f32) i := by
  unfold iblk
  rw [View.read_apply]
  show V m c main_v0 _ = V m c main_v0 _
  refine congrArg (V m c main_v0) (funext fun a => Fin.ext ?_)
  match a with
  | ⟨0, _⟩ => exact h0
  | ⟨1, _⟩ => exact h1
  | ⟨2, _⟩ => exact h2

/-- The prototypes' block at any point is the prototype matrix. -/
theorem protoBlock_apply (c : Dev nD) (t : Fin cfg0.N) (x : S256x256.Idx) (i : S256x256.Idx)
    (h0 : win0_1.index t (0 : Fin 2) * 256 + 1 * (x 0).val = (i 0).val)
    (h1 : win0_1.index t (1 : Fin 2) * 256 + 1 * (x 1).val = (i 1).val) :
    (iblk m c 1 t : Vec Ideal S256x256 .f32) x = (V m c main_arg1 : S256x256.Idx → Elt Ideal .f32) i := by
  unfold iblk
  rw [View.read_apply]
  show V m c main_arg1 _ = V m c main_arg1 _
  refine congrArg (V m c main_arg1) (funext fun a => Fin.ext ?_)
  match a with
  | ⟨0, _⟩ => exact h0
  | ⟨1, _⟩ => exact h1

/-! ## What a point writes back -/

/-- The stored value at `j` from ANY two loaded blocks that are the arrays `E`, `P` read under array index `i`: the
    specification's entry at `i`. -/
theorem stored_eq (E : (⟨3, ![16, 256, 16384]⟩ : Shape).Idx → EReal) (P : (⟨2, ![256, 256]⟩ : Shape).Idx → EReal)
    (x0 : Vec Ideal S1x256x2048 .f32) (x1 : Vec Ideal S256x256 .f32) (j : S1x256x2048.Idx) (i : S16x256x16384.Idx)
    (h0 : ∀ cc : Fin 256, x0 (ix3 (0 : Fin 1) cc (j 2)) = E (ix3 (i 0) cc (i 2)))
    (h1 : ∀ cc : Fin 256, x1 (ix2 (j 1) cc) = P (ix2 (i 1) cc)) :
    k0_pay1 (F := Ideal) x0 x1 j = Cert.SqDist.negDist E P i := by
  refine (congrArg (k0_pay1 (F := Ideal) x0 x1) (eq_ix3 j)).trans ?_
  refine (Cert.KernelIdeal.Payload.pay_apply x0 x1 (j 0) (j 1) (j 2)).trans ?_
  unfold Cert.SqDist.negDist Cert.SqDist.negDistAt Cert.SqDist.protoSq Cert.SqDist.embSq Cert.SqDist.protoDotEmb
  simp only [h0, h1]

/-- The same at point `t`'s blocks, for an array index `i` that is `j` under the result's block. -/
theorem block_eq (c : Dev nD) (t : Fin cfg0.N) (j : S1x256x2048.Idx) (i : S16x256x16384.Idx)
    (hi0 : (i 0).val = win0_2.index t (0 : Fin 3) * 1 + 1 * (j 0).val)
    (hi1 : (i 1).val = win0_2.index t (1 : Fin 3) * 256 + 1 * (j 1).val)
    (hi2 : (i 2).val = win0_2.index t (2 : Fin 3) * 2048 + 1 * (j 2).val) :
    k0_pay1 (F := Ideal) (iblk m c 0 t) (iblk m c 1 t) j
      = Cert.SqDist.negDist (V m c main_v0) (V m c main_arg1) i := by
  obtain ⟨e0, e1, e2, e3, e4, e5, -, -⟩ := index_facts t
  have hj0 : (j 0).val < 1 := (j 0).isLt
  refine stored_eq (V m c main_v0) (V m c main_arg1) (iblk m c 0 t) (iblk m c 1 t) j i (fun cc => ?_) (fun cc => ?_)
  · refine embBlock_apply m c t (ix3 (0 : Fin 1) cc (j 2)) (ix3 (i 0) cc (i 2)) ?_ ?_ ?_
    · show win0_0.index t (0 : Fin 3) * 1 + 1 * 0 = (i 0).val; omega
    · show win0_0.index t (1 : Fin 3) * 256 + 1 * cc.val = cc.val; omega
    · show win0_0.index t (2 : Fin 3) * 2048 + 1 * (j 2).val = (i 2).val; omega
  · refine protoBlock_apply m c t (ix2 (j 1) cc) (ix2 (i 1) cc) ?_ ?_
    · show win0_1.index t (0 : Fin 2) * 256 + 1 * (j 1).val = (i 1).val; omega
    · show win0_1.index t (1 : Fin 2) * 256 + 1 * cc.val = cc.val; omega

/-- WHAT POINT `t` WRITES BACK is block `t` of the specification of the two arrays as the region finds them. -/
theorem flushed_eq (c : Dev nD) (t : Fin cfg0.N) :
    (dats m 0 c).flushed 2 t
      = ((cfg0.win 2).blk t).view.read (Elt Ideal) (Cert.SqDist.negDist (V m c main_v0) (V m c main_arg1)) := by
  show (cfg0.win 2).cut (grid0.coords t) ((dats m 0 c).after 2 t) = _
  rw [after0_2]
  unfold out0_2
  rw [View.canon_unit_zero zero3]
  simp only [View.ld_unit_zero (S := S1x256x2048) zero3, View.ld_unit_zero (S := S256x256) zero2]
  funext j
  show k0_pay1 (F := Ideal) (iblk m c 0 t) (iblk m c 1 t) j
    = Cert.SqDist.negDist (V m c main_v0) (V m c main_arg1) (((cfg0.win 2).blk t).view.emb j)
  exact block_eq m c t j (((cfg0.win 2).blk t).view.emb j) rfl rfl rfl

/-! ## The cover -/

/-- An index of the result array is in point `t`'s block iff each coordinate is in the block's range on its axis. -/
theorem mem_blk (t : Fin cfg0.N) (i : S16x256x16384.Idx) :
    i ∈ ((cfg0.win 2).blk t).view.set ↔ ∀ a : Fin 3, win0_2.index t a * S1x256x2048.size a ≤ (i a).val ∧ (i a).val < win0_2.index t a * S1x256x2048.size a + S1x256x2048.size a := by
  show i ∈ ((View.whole main_v1).slice (win0_2.rect t)).set ↔ _
  rw [View.set_slice_whole, Rect.mem_set_unit]
  exact Iff.rfl

/-- Every index of the result array is in some point's block: pixel `n` of image `b` in block `(b, 0, n / 2048)`. -/
theorem covered (i : S16x256x16384.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 16384 := (i 2).isLt
  obtain ⟨t, ht⟩ := index_onto ⟨(i 0).val, hi0⟩ ⟨(i 2).val / 2048, by omega⟩
  have q0 : win0_2.index t (0 : Fin 3) = (i 0).val := congrFun ht 0
  have q1 : win0_2.index t (1 : Fin 3) = 0 := congrFun ht 1
  have q2 : win0_2.index t (2 : Fin 3) = (i 2).val / 2048 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- THE RESULT ARRAY after the run: the specification of the reshaped embeddings and the prototypes as the region finds them. -/
theorem final (c : Dev nD) :
    (dats m 0 c).arrAt 2 cfg0.N = Cert.SqDist.negDist (V m c main_v0) (V m c main_arg1) :=
  (dats m 0 c).arrAt_eq_of_cover 2 (Cert.SqDist.negDist (V m c main_v0) (V m c main_arg1)) (fun t _ => flushed_eq m c t) covered

end Cert.KernelIdeal.Blocks

end
-- ==== Proof.KernelRun.lean ====
/-
  The kernel's whole program, read: the reshape before the region, the region, the reshape after it.

  The region finds the embeddings reshaped to `[16, 256, 16384]` (one host reshape of the argument) and the prototypes as
  launched; it leaves the result array at the specification of those two (the blocks tile it); the one host operation after
  the region reshapes that array to `[16, 256, 128, 128]`. So every weakly fair execution ends with the result at
  reshape ∘ specification ∘ reshape of the arguments, and the arguments unchanged.
-/
import proofs.«163457_j42339787604062_2_alg».proof.Proof.Gen.KernelIdeal.Frame
import proofs.«163457_j42339787604062_2_alg».proof.Proof.Blocks
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Whole

open Idealize.ShloMosaic.ValueIdx Idealize.ShloMosaic.StableHlo Cert.KernelIdeal Cert.KernelIdeal.Gen

variable (m : (ℓ : Loc nD τ sig) → Buf (Elt Ideal) ℓ) (ρ : Dev nD → PrngReg)

/-- The function of the two argument arrays the program computes. -/
def result (e : (⟨S16x256x128x128, .f32⟩ : BufTy).Contents (Elt Ideal)) (p : (⟨S256x256, .f32⟩ : BufTy).Contents (Elt Ideal)) :
    (⟨S16x256x128x128, .f32⟩ : BufTy).Contents (Elt Ideal) :=
  shapeCast S16x256x128x128
    (Cert.SqDist.negDist (shapeCast S16x256x16384 e shapeCasts_S16x256x128x128_S16x256x16384) p)
    shapeCasts_S16x256x16384_S16x256x128x128

/-- The region finds the embeddings reshaped. -/
theorem entry_emb (c : Dev nD) :
    (V m c main_v0 : S16x256x16384.Idx → Elt Ideal .f32)
      = shapeCast S16x256x16384 (m ((c : Thread nD τ).loc main_arg0)) shapeCasts_S16x256x128x128_S16x256x16384 := by
  show StableHlo.after hostOps0 (fun b => m (c, b)) (Proc.devRef .tc main_v0) = _
  after_results
  rfl

/-- The host operation after the region reshapes the result array. -/
theorem tail_eq (c : Dev nD) :
    Pipeline.afterTail₀ cfgs (dats m) 0 (V0 m) [hostOps1] c main_v2
      = shapeCast S16x256x128x128 ((dats m 0 c).arrAt 2 cfg0.N) shapeCasts_S16x256x16384_S16x256x128x128 := by
  unfold Pipeline.afterTail₀
  show StableHlo.after hostOps1 _ (Proc.devRef .tc main_v2) = _
  after_results
  have hw : Pipeline.withArrays spec0 c (V0 m c) (fun w => (dats m 0 c).arrAt w cfg0.N) (Proc.devRef .tc main_v1)
      = (dats m 0 c).arrAt 2 cfg0.N :=
    Pipeline.withArrays_arr spec0 launch0.win.arr_inj c (V0 m c) (fun w => (dats m 0 c).arrAt w cfg0.N) 2
  exact congrArg (fun A => shapeCast S16x256x128x128 A shapeCasts_S16x256x16384_S16x256x128x128) hw

/-- THE RUN, READ: every weakly fair execution of the program terminates with the result at `result` of the argument arrays
    and the arguments unchanged. The result buffer is written by the reshape after the region only; the embeddings bypass
    the region; the prototypes are a window the region only reads. -/
theorem run : θ_run defs (onTc (τ := τ) (main (F := Ideal))) ⟨m, fun _ => 0, ρ⟩ fun r => ∀ c : Dev nD,
      r.2.mem ((c.tc : Thread nD τ).loc main_v2)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans ((tail_eq m c).trans (by
        unfold result
        rw [Cert.KernelIdeal.Blocks.final m c, entry_emb m c, V_main_arg1 m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefValue.lean ====
/-
  The reference, read at an index of its `[16, 256, 16384]` stage.

  The reference flattens the embeddings to rows `N = b · 16384 + n` (image `b`, pixel `n`) of 256 channels, computes
  per row and prototype `k` the value  max( (0 + ‖E_{b,·,n}‖²) + (0 + ‖P_k‖²) − 2 · Σ_c E[b,c,n] · P[k,c] , 0 ),
  lays the rows back out as `[16, 256, 16384]`, reshapes, and negates. Read at `(b, k, n)` before the last reshape, the
  negated value is the specification's entry: the flattening and its inverse cancel (row `N`, channel `c` of the flattened
  array is the reshaped argument at `(b, c, n)`), and the arrangement differs from the specification's only by the
  order of a sum's two terms, the order of a product's two factors, and `−x` for `0 − x`.
-/
import proofs.«163457_j42339787604062_2_alg».proof.Proof.Gen.ReferenceIdeal.Read
import proofs.«163457_j42339787604062_2_alg».proof.Proof.Spec

noncomputable section

namespace Cert.ReferenceIdeal.RefValue

open Idealize.ShloMosaic Idealize.ShloMosaic.ValueIdx Cert.ReferenceIdeal Cert.ReferenceIdeal.Gen Cert.ReferenceIdeal.Read

variable (e : (⟨S16x256x128x128, .f32⟩ : BufTy).Contents (Elt Ideal)) (p : (⟨S256x256, .f32⟩ : BufTy).Contents (Elt Ideal))

/-- Row `N = b · 16384 + n`, channel `c` of the flattened embeddings is the reshaped argument at `(b, c, n)`. -/
theorem flatEmb_apply (N : S262144x256.Idx) (b : Fin 16) (c : Fin 256) (n : Fin 16384)
    (hN0 : (N 0).val = b.val * 16384 + n.val) (hN1 : (N 1).val = c.val) :
    val_main_v2 (F := Ideal) e N = val_main_v0 (F := Ideal) e (ix3 b c n) := by
  rw [val_main_v2_apply, val_main_v1_apply]
  refine congrArg (val_main_v0 (F := Ideal) e) (funext fun a => Fin.ext ?_)
  have hb : b.val < 16 := b.isLt
  have hc : c.val < 256 := c.isLt
  have hn : n.val < 16384 := n.isLt
  match a with
  | ⟨0, _⟩ => show ((N 0).val * 256 + (N 1).val) / 4194304 = b.val; omega
  | ⟨1, _⟩ => show ((N 0).val * 256 + (N 1).val) % 256 = c.val; omega
  | ⟨2, _⟩ => show ((N 0).val * 256 + (N 1).val) / 256 % 16384 = n.val; omega

/-- The embedding's squared norm, broadcast over the prototypes: at row `b · 16384 + n` it is `0 + ‖E_{b,·,n}‖²`. -/
theorem embNorm_apply (M : S262144x256.Idx) (b : Fin 16) (n : Fin 16384) (hM0 : (M 0).val = b.val * 16384 + n.val) :
    val_main_v9 (F := Ideal) e M = Cert.SqDist.zero + Cert.SqDist.embSq (val_main_v0 (F := Ideal) e) b n := by
  rw [val_main_v9_apply, val_main_v5_apply, val_main_v4_apply]
  unfold Cert.SqDist.embSq
  refine congrArg₂ (· + ·) rfl (Finset.sum_congr rfl fun c _ => ?_)
  rw [val_main_v3_apply, flatEmb_apply e (idx_main_v4 (idx_main_v5 (idx_main_v9 M)) c) b c n hM0 rfl]
  rfl

/-- The prototype's squared norm, broadcast over the rows: at column `k` it is `0 + ‖P_k‖²`. -/
theorem protoNorm_apply (M : S262144x256.Idx) (k : Fin 256) (hM1 : (M 1).val = k.val) :
    val_main_v10 (F := Ideal) p M = Cert.SqDist.zero + Cert.SqDist.protoSq p k := by
  rw [val_main_v10_apply, val_main_v8_apply, val_main_v7_apply]
  unfold Cert.SqDist.protoSq
  refine congrArg₂ (· + ·) rfl (Finset.sum_congr rfl fun c _ => ?_)
  rw [val_main_v6_apply]
  have hi : idx_main_v7 (idx_main_v8 (idx_main_v10 M)) c = ix2 k c := funext fun a => Fin.ext (by
    match a with
    | ⟨0, _⟩ => exact hM1
    | ⟨1, _⟩ => rfl)
  rw [hi]
  rfl

/-- The product of the flattened embeddings with the transposed prototypes, at row `b · 16384 + n` and column `k`:
    the sum over the channels of the embedding's entry times the prototype's. -/
theorem product_apply (M : S262144x256.Idx) (b : Fin 16) (k : Fin 256) (n : Fin 16384)
    (hM0 : (M 0).val = b.val * 16384 + n.val) (hM1 : (M 1).val = k.val) :
    val_main_v13 (F := Ideal) e p M = ∑ c : Fin 256, val_main_v0 (F := Ideal) e (ix3 b c n) * p (ix2 k c) := by
  rw [val_main_v13_apply]
  refine Finset.sum_congr rfl fun c _ => ?_
  rw [flatEmb_apply e (lidx_main_v13 M c) b c n hM0 rfl, val_main_v12_apply]
  have hi : idx_main_v12 (ridx_main_v13 M c) = ix2 k c := funext fun a => Fin.ext (by
    match a with
    | ⟨0, _⟩ => exact hM1
    | ⟨1, _⟩ => rfl)
  rw [hi]

/-- The clamped value at row `b · 16384 + n` and column `k`, in the reference's arrangement. -/
theorem clamped_apply (M : S262144x256.Idx) (b : Fin 16) (k : Fin 256) (n : Fin 16384)
    (hM0 : (M 0).val = b.val * 16384 + n.val) (hM1 : (M 1).val = k.val) :
    val_main_v18 (F := Ideal) e p M
      = max (((Cert.SqDist.zero + Cert.SqDist.embSq (val_main_v0 (F := Ideal) e) b n) + (Cert.SqDist.zero + Cert.SqDist.protoSq p k))
          - Cert.SqDist.two * ∑ c : Fin 256, val_main_v0 (F := Ideal) e (ix3 b c n) * p (ix2 k c)) Cert.SqDist.zero := by
  rw [val_main_v18_apply, val_main_v16_apply, val_main_v11_apply, val_main_v15_apply, val_main_v17_apply, val_main_cst_2_apply,
    val_main_v14_apply, val_main_cst_1_apply, embNorm_apply e M b n hM0, protoNorm_apply p M k hM1, product_apply e p M b k n hM0 hM1]
  rfl

/-- THE REFERENCE AT `(b, k, n)`, negated: the specification's entry of the reshaped embeddings and the prototypes. -/
theorem neg_stage_apply (j : S16x256x16384.Idx) :
    -(val_main_v20 (F := Ideal) e p j) = Cert.SqDist.negDist (val_main_v0 (F := Ideal) e) p j := by
  have h0 : (j 0).val < 16 := (j 0).isLt
  have h1 : (j 1).val < 256 := (j 1).isLt
  have h2 : (j 2).val < 16384 := (j 2).isLt
  rw [val_main_v20_apply, val_main_v19_apply,
    clamped_apply e p _ (j 0) (j 1) (j 2)
      (by show (((j 0).val * 16384 + (j 2).val) * 256 + (j 1).val) / 256 = (j 0).val * 16384 + (j 2).val; omega)
      (by show (((j 0).val * 16384 + (j 2).val) * 256 + (j 1).val) % 256 = (j 1).val; omega)]
  unfold Cert.SqDist.negDist Cert.SqDist.negDistAt
  exact Cert.SqDist.neg_max_eq_clampNeg _ _ _ _ (Cert.SqDist.embDotProto_eq p (val_main_v0 (F := Ideal) e) (j 0) (j 1) (j 2))

/-- THE REFERENCE'S RESULT: the last reshape of the specification of the first reshape of the embeddings. Negation acts
    entry by entry, so it passes under the reshape. -/
theorem result_eq :
    val_main_v22 (F := Ideal) e p
      = shapeCast S16x256x128x128 (Cert.SqDist.negDist (val_main_v0 (F := Ideal) e) p) shapeCasts_S16x256x16384_S16x256x128x128 := by
  have hs : (fun j => -(val_main_v20 (F := Ideal) e p j)) = Cert.SqDist.negDist (val_main_v0 (F := Ideal) e) p :=
    funext (neg_stage_apply e p)
  rw [← hs]
  rfl

end Cert.ReferenceIdeal.RefValue

end
-- ==== Proof.lean ====
/-
  Negated clamped squared distances between embeddings and prototypes: the kernel against its reference, on the extended reals.

  Both programs take embeddings `e[16, 256, 128, 128]` (image, channel, row, column) and prototypes `p[256, 256]` (prototype,
  channel) and return `[16, 256, 128, 128]` (image, prototype, row, column). With the 128 × 128 pixels of an image flattened
  to `n < 16384`, both compute at `(b, k, n)`
      − max( ‖p_k‖² + ‖e_{b,·,n}‖² − 2 · ⟨p_k, e_{b,·,n}⟩ , 0 ),
  every sum over the 256 channels (Proof/Spec.lean).

  The kernel reshapes `e` to `[16, 256, 16384]`, and at each of 16 × 8 grid points takes one image's 2048 pixels with all
  channels and the whole prototype matrix, forms the two squared norms by sums over the channel axis, the inner products
  by one matrix product `p · e` accumulated from zero (its operands rounded to a narrower format, which is the identity on
  extended reals), and stores `0 − max(‖p‖² + ‖e‖² − 2·(p·e), 0)`; it reshapes the result back (Proof/Payload.lean: the stored
  value at an index; Proof/Blocks.lean: the blocks tile the result array; Proof/KernelRun.lean: the two reshapes and the run).
  The reference transposes the embeddings to rows of channels, computes `max((0 + ‖e‖²) + (0 + ‖p‖²) − 2·(e · pᵀ), 0)`,
  transposes back and negates (Proof/RefValue.lean).

  The two arrangements agree on EVERY extended real: addition and multiplication commute, a sum over the channels does not
  depend on which factor is written first, and `0 − x = −x` at the infinities too. So the precondition (finite inputs) is
  never opened. The kernel's idealization rewrote no operation, so there is nothing to preserve.
-/
import proofs.«163457_j42339787604062_2_alg».proof.Defs
import proofs.«163457_j42339787604062_2_alg».proof.Proof.Gen.Kernel
import proofs.«163457_j42339787604062_2_alg».proof.Proof.Gen.Kernel.Skeleton
import proofs.«163457_j42339787604062_2_alg».proof.Proof.Gen.Kernel.Launch
import proofs.«163457_j42339787604062_2_alg».proof.Proof.Gen.Kernel.Points
import proofs.«163457_j42339787604062_2_alg».proof.Proof.Gen.Kernel.Frame
import proofs.«163457_j42339787604062_2_alg».proof.Proof.Gen.KernelIdeal
import proofs.«163457_j42339787604062_2_alg».proof.Proof.Gen.KernelIdeal.Skeleton
import proofs.«163457_j42339787604062_2_alg».proof.Proof.Gen.KernelIdeal.Launch
import proofs.«163457_j42339787604062_2_alg».proof.Proof.Gen.KernelIdeal.Points
import proofs.«163457_j42339787604062_2_alg».proof.Proof.Gen.KernelIdeal.Frame
import proofs.«163457_j42339787604062_2_alg».proof.Proof.Gen.ReferenceIdeal
import proofs.«163457_j42339787604062_2_alg».proof.Proof.Gen.Pre_finite_inputs
import proofs.«163457_j42339787604062_2_alg».proof.Proof.Gen.ReferenceIdeal.Run
import proofs.«163457_j42339787604062_2_alg».proof.Proof.Gen.ReferenceIdeal.Read
import proofs.«163457_j42339787604062_2_alg».proof.Proof.KernelRun
import proofs.«163457_j42339787604062_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, the kernel ends at reshape ∘ specification ∘ reshape
    of the arguments and the reference at the negation of its last stage, which is the same array: index by index
    `−max((0 + ‖e‖²) + (0 + ‖p‖²) − 2·(e·pᵀ), 0) = 0 − max(‖p‖² + ‖e‖² − 2·(p·e), 0)`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v22_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
